-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 41
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S1024x4096, .bf16⟩
  | .hbm, ⟨36, _⟩ => ⟨S1024x4096, .bf16⟩
  | .hbm, ⟨37, _⟩ => ⟨S4096, .f32⟩
  | .hbm, ⟨38, _⟩ => ⟨S1x4096, .f32⟩
  | .hbm, ⟨39, _⟩ => ⟨S16384x1024, .f32⟩
  | .hbm, ⟨40, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  bitsLt_bf16_f32 : FTy.bits .bf16 < FTy.bits .f32
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S4096x2048 : Shape := ⟨2, ![4096, 2048]⟩
abbrev S4096 : Shape := ⟨1, ![4096]⟩
abbrev S2048x4096 : Shape := ⟨2, ![2048, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S16384x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.KEntryBits.lean ====
/-
  The program up to its one kernel launch.

  Before the launch the host slices each gate's weight matrix into its input and hidden halves, transposes and rounds
  them, joins the four gates' halves side by side, joins the four biases and reshapes them to one row.  The contents
  of the device's buffers when the launch is reached are therefore the fold of those operations over the contents the
  program was started from; no operation of the fold writes an argument array, so each argument is found as it was.
-/
import proofs.«177931_j33148557590883_2_alg».proof.Proof.Gen.Kernel.Launch
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

variable (m : (ℓ : Loc nD τ sig) → Buf (Elt F) ℓ) (ρ : Dev nD → PrngReg)

/-- Core `c`'s buffers when the launch is reached: the host operations' fold over the starting contents. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

end Cert.Kernel.Hand

end
-- ==== Proof.KFrameBits.lean ====
/-
  The kernel launch as a frame run.

  The launch visits 64 grid points; at point `t` the body is handed block `t` (256 rows) of `x`, `h` and `c`, the whole
  side-by-side weight arrays and the bias row, and two output blocks.  The body loads its six inputs, computes, and
  overwrites each output block whole, so what an output's staging buffer holds after the body is one function of the
  six input blocks (the body's two stored values), whatever the buffer held before.  With that as the per-point data
  the library's frame run gives: every execution terminates without a fault, each output array ends as its blocks
  written back point by point, and every buffer that is no window's array — the argument weights and biases among
  them — ends as the launch found it; the three staged arguments end unchanged because input windows are only read.
-/
import proofs.«177931_j33148557590883_2_alg».proof.Proof.KEntryBits
import proofs.«177931_j33148557590883_2_alg».proof.Proof.Gen.Kernel.Skeleton
import proofs.«177931_j33148557590883_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the launch-time contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the launch-time contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the launch-time contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the launch-time contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the launch-time contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the launch-time contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a frame run: a staged argument is an input window's array, which ends as it began; an argument no window
    stages is among the buffers the launch never touches; each is then as launched, no host operation writing it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: each buffer whole -/

abbrev rRows : Rect S256x1024 := Rect.unit (s := S256x1024) ![0, 0] S256x1024.size inb_S256x1024_S256x1024_0_0
abbrev rWts : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output block -/

/-- The new hidden state's block: the body's one store into it, of the six input blocks. -/
def out0_6 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rRows, k0_pay3 (View.ld x0 rRows) (View.ld x1 rRows) (View.ld x2 rRows) (View.ld x3 rWts) (View.ld x4 rWts) (View.ld x5 rBias)⟩]

/-- The new cell state's block likewise. -/
def out0_7 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rRows, k0_pay2 (View.ld x0 rRows) (View.ld x1 rRows) (View.ld x2 rRows) (View.ld x3 rWts) (View.ld x4 rWts) (View.ld x5 rBias)⟩]

/-- One store of the whole block covers it. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers, the inputs' at contents `xW` and the outputs' at anything, runs to the
    continuation holding the inputs' as they were and each output's at its function of the inputs. -/
theorem sound_kernel (c : Dev nD) (E : Set ℕ) (i : grid0.Coords) (arg0 : Memref sig .tc .vmem S256x1024 .f32) (harg0 : arg0.IsWhole) (arg1 : Memref sig .tc .vmem S256x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .f32) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5) ∗ owns (c : Thread nD τ) arg7 fullShare (out0_7 x0 x1 x2 x3 x4 x5)) -∗ K ⟨⟩))
      ⊢ wp frame (wpE (defs₀ (F := F)) Variants.none c none) E (cc0__lstm_kernel i arg0 harg0 arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The launch's proof data -/

/-- On core `c`: the arrays as the launch finds them; after the body at point `t` each input's buffer at its block and
    each output's at its function of the input blocks; nothing else is used, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, each window's array ending at what the proof data compute
    and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KEntry.lean ====
/-
  The program up to its one kernel launch.

  Before the launch the host slices each gate's weight matrix into its input and hidden halves, transposes and rounds
  them, joins the four gates' halves side by side, joins the four biases and reshapes them to one row.  The contents
  of the device's buffers when the launch is reached are therefore the fold of those operations over the contents the
  program was started from; no operation of the fold writes an argument array, so each argument is found as it was.
-/
import proofs.«177931_j33148557590883_2_alg».proof.Proof.Gen.KernelIdeal.Launch
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

variable (m : (ℓ : Loc nD τ sig) → Buf (Elt F) ℓ) (ρ : Dev nD → PrngReg)

/-- Core `c`'s buffers when the launch is reached: the host operations' fold over the starting contents. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

end Cert.KernelIdeal.Hand

end
-- ==== Proof.KFrame.lean ====
/-
  The kernel launch as a frame run.

  The launch visits 64 grid points; at point `t` the body is handed block `t` (256 rows) of `x`, `h` and `c`, the whole
  side-by-side weight arrays and the bias row, and two output blocks.  The body loads its six inputs, computes, and
  overwrites each output block whole, so what an output's staging buffer holds after the body is one function of the
  six input blocks (the body's two stored values), whatever the buffer held before.  With that as the per-point data
  the library's frame run gives: every execution terminates without a fault, each output array ends as its blocks
  written back point by point, and every buffer that is no window's array — the argument weights and biases among
  them — ends as the launch found it; the three staged arguments end unchanged because input windows are only read.
-/
import proofs.«177931_j33148557590883_2_alg».proof.Proof.KEntry
import proofs.«177931_j33148557590883_2_alg».proof.Proof.Gen.KernelIdeal.Skeleton
import proofs.«177931_j33148557590883_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the launch-time contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the launch-time contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the launch-time contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the launch-time contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the launch-time contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the launch-time contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a frame run: a staged argument is an input window's array, which ends as it began; an argument no window
    stages is among the buffers the launch never touches; each is then as launched, no host operation writing it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: each buffer whole -/

abbrev rRows : Rect S256x1024 := Rect.unit (s := S256x1024) ![0, 0] S256x1024.size inb_S256x1024_S256x1024_0_0
abbrev rWts : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output block -/

/-- The new hidden state's block: the body's one store into it, of the six input blocks. -/
def out0_6 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rRows, k0_pay3 (View.ld x0 rRows) (View.ld x1 rRows) (View.ld x2 rRows) (View.ld x3 rWts) (View.ld x4 rWts) (View.ld x5 rBias)⟩]

/-- The new cell state's block likewise. -/
def out0_7 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rRows, k0_pay2 (View.ld x0 rRows) (View.ld x1 rRows) (View.ld x2 rRows) (View.ld x3 rWts) (View.ld x4 rWts) (View.ld x5 rBias)⟩]

/-- One store of the whole block covers it. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers, the inputs' at contents `xW` and the outputs' at anything, runs to the
    continuation holding the inputs' as they were and each output's at its function of the inputs. -/
theorem sound_kernel (c : Dev nD) (E : Set ℕ) (i : grid0.Coords) (arg0 : Memref sig .tc .vmem S256x1024 .f32) (harg0 : arg0.IsWhole) (arg1 : Memref sig .tc .vmem S256x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1x4096 .f32) (harg5 : arg5.IsWhole) (arg6 : Memref sig .tc .vmem S256x1024 .f32) (harg6 : arg6.IsWhole) (arg7 : Memref sig .tc .vmem S256x1024 .f32) (harg7 : arg7.IsWhole)
    (x0 : Vec F S256x1024 .f32) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5) ∗ owns (c : Thread nD τ) arg7 fullShare (out0_7 x0 x1 x2 x3 x4 x5)) -∗ K ⟨⟩))
      ⊢ wp frame (wpE (defs₀ (F := F)) Variants.none c none) E (cc0__lstm_kernel i arg0 harg0 arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The launch's proof data -/

/-- On core `c`: the arrays as the launch finds them; after the body at point `t` each input's buffer at its block and
    each output's at its function of the input blocks; nothing else is used, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, each window's array ending at what the proof data compute
    and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.KBlocks.lean ====
/-
  The launch's blocks as pieces of the arrays.

  The grid has 64 points.  At point `t` the three batch windows and the two result windows sit at block row `t`
  (rows `256 t … 256 t + 255`, all 1024 columns); the side-by-side weights and the bias row are one block each, the
  whole array, at every point.  So an element of a batch block is the array's element 256 t rows further down, and
  a weight or bias block is the array itself.
-/
import proofs.«177931_j33148557590883_2_alg».proof.Proof.KFrame
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The printed index maps over the grid: block row `t`, block column 0 for the batch and result windows; block
    (0, 0) for the weights and the bias. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Window 0's block at point `t` is rows `256 t … 256 t + 255` of argument 0. -/
theorem rows0_apply (c : Dev nD) (t : Fin cfg0.N) (x : S256x1024.Idx) (k : S16384x1024.Idx)
    (hk0 : (k 0).val = 256 * t.val + (x 0).val) (hk1 : (k 1).val = (x 1).val) :
    (iblk m c 0 t : Vec F S256x1024 .f32) x = (m ((c : Thread nD τ).loc main_arg0) : S16384x1024.Idx → Elt F .f32) k := by
  have hi := (idx_facts t).1
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * (x 0).val = (k 0).val; rw [hi.1, hk0]; omega
  | ⟨1, _⟩ => show win0_0.index t 1 * 1024 + 1 * (x 1).val = (k 1).val; rw [hi.2, hk1]; omega

/-- Window 1's block at point `t` is rows `256 t … 256 t + 255` of argument 1. -/
theorem rows1_apply (c : Dev nD) (t : Fin cfg0.N) (x : S256x1024.Idx) (k : S16384x1024.Idx)
    (hk0 : (k 0).val = 256 * t.val + (x 0).val) (hk1 : (k 1).val = (x 1).val) :
    (iblk m c 1 t : Vec F S256x1024 .f32) x = (m ((c : Thread nD τ).loc main_arg1) : S16384x1024.Idx → Elt F .f32) k := by
  have hi := (idx_facts t).2.1
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * (x 0).val = (k 0).val; rw [hi.1, hk0]; omega
  | ⟨1, _⟩ => show win0_1.index t 1 * 1024 + 1 * (x 1).val = (k 1).val; rw [hi.2, hk1]; omega

/-- Window 2's block at point `t` is rows `256 t … 256 t + 255` of argument 2. -/
theorem rows2_apply (c : Dev nD) (t : Fin cfg0.N) (x : S256x1024.Idx) (k : S16384x1024.Idx)
    (hk0 : (k 0).val = 256 * t.val + (x 0).val) (hk1 : (k 1).val = (x 1).val) :
    (iblk m c 2 t : Vec F S256x1024 .f32) x = (m ((c : Thread nD τ).loc main_arg2) : S16384x1024.Idx → Elt F .f32) k := by
  have hi := (idx_facts t).2.2.1
  unfold iblk
  rw [View.read_apply]
  show V m c main_arg2 _ = m (c.tc.loc main_arg2) _
  rw [V_main_arg2]
  congr 1
  funext a
  apply Fin.ext
  match a with
  | ⟨0, _⟩ => show win0_2.index t 0 * 256 + 1 * (x 0).val = (k 0).val; rw [hi.1, hk0]; omega
  | ⟨1, _⟩ => show win0_2.index t 1 * 1024 + 1 * (x 1).val = (k 1).val; rw [hi.2, hk1]; omega

/-- The input-weights window's block is the whole side-by-side array. -/
theorem wts3_apply (c : Dev nD) (t : Fin cfg0.N) (x : S1024x4096.Idx) :
    (iblk m c 3 t : Vec F S1024x4096 .bf16) x = (V m c main_v24 : S1024x4096.Idx → Elt F .bf16) x := by
  have hi := (idx_facts t).2.2.2.1
  unfold iblk
  rw [View.read_apply]
  show V m c main_v24 _ = V m c main_v24 _
  congr 1
  funext a
  apply Fin.ext
  match a with
  | ⟨0, _⟩ => show win0_3.index t 0 * 1024 + 1 * (x 0).val = (x 0).val; rw [hi.1]; omega
  | ⟨1, _⟩ => show win0_3.index t 1 * 4096 + 1 * (x 1).val = (x 1).val; rw [hi.2]; omega

/-- The hidden-weights window's block is the whole side-by-side array. -/
theorem wts4_apply (c : Dev nD) (t : Fin cfg0.N) (x : S1024x4096.Idx) :
    (iblk m c 4 t : Vec F S1024x4096 .bf16) x = (V m c main_v25 : S1024x4096.Idx → Elt F .bf16) x := by
  have hi := (idx_facts t).2.2.2.2.1
  unfold iblk
  rw [View.read_apply]
  show V m c main_v25 _ = V m c main_v25 _
  congr 1
  funext a
  apply Fin.ext
  match a with
  | ⟨0, _⟩ => show win0_4.index t 0 * 1024 + 1 * (x 0).val = (x 0).val; rw [hi.1]; omega
  | ⟨1, _⟩ => show win0_4.index t 1 * 4096 + 1 * (x 1).val = (x 1).val; rw [hi.2]; omega

/-- The bias window's block is the whole bias row. -/
theorem bias5_apply (c : Dev nD) (t : Fin cfg0.N) (x : S1x4096.Idx) :
    (iblk m c 5 t : Vec F S1x4096 .f32) x = (V m c main_v27 : S1x4096.Idx → Elt F .f32) x := by
  have hi := (idx_facts t).2.2.2.2.2.1
  unfold iblk
  rw [View.read_apply]
  show V m c main_v27 _ = V m c main_v27 _
  congr 1
  funext a
  apply Fin.ext
  match a with
  | ⟨0, _⟩ => show win0_5.index t 0 * 1 + 1 * (x 0).val = (x 0).val; rw [hi.1]; omega
  | ⟨1, _⟩ => show win0_5.index t 1 * 4096 + 1 * (x 1).val = (x 1).val; rw [hi.2]; omega

end Cert.KernelIdeal.Hand

end
-- ==== Proof.Spec.lean ====
/-
  The LSTM cell as ONE function of its argument arrays, on the extended reals.

  For a batch row `i` and a gate column `j`, a gate's pre-activation is the row `(x i, h i)` of length 2048 against
  row `j` of the gate's weight matrix, plus the gate's bias: the sum over the 1024 input columns of `x i k · W j k`,
  plus the sum over the 1024 hidden columns of `h i k · W j (1024 + k)`, plus `b j`.  With `σ` the logistic function,
  the new cell state is `σ(f) · c + σ(u) · tanh(g)` and the new hidden state `tanh(c') · σ(o)`, where `f, u, g, o`
  are the pre-activations of the forget, update, candidate and output gates.

  Also here: a sum over 2048 columns is the sum over its first 1024 plus the sum over its last 1024 (in any additive
  commutative monoid, so with no finiteness assumption on the extended reals), and the word of the float `1.0`.
-/
import Idealize.ShloMosaic.PureOps.Ideal
import Idealize.ShloMosaic.Lib.ValueIdx

noncomputable section

namespace Cert.Spec

open Idealize.ShloMosaic Idealize.ShloMosaic.ValueIdx

/-- The batch arrays `x`, `h`, `c` and both results: 16384 rows of 1024 columns. -/
abbrev Rows : Shape := ⟨2, ![16384, 1024]⟩
/-- A gate's weights: 1024 output rows, 1024 input columns then 1024 hidden columns. -/
abbrev Wts : Shape := ⟨2, ![1024, 2048]⟩
/-- A gate's bias. -/
abbrev Bias : Shape := ⟨1, ![1024]⟩

/-- Weight column `k` of the input part, -/
abbrev lo (k : Fin 1024) : Fin 2048 := ⟨k.val, by omega⟩
/-- and of the hidden part. -/
abbrev hi (k : Fin 1024) : Fin 2048 := ⟨1024 + k.val, by omega⟩

/-- Column `j` of gate `g` when the four gates' columns lie side by side (forget, update, candidate, output). -/
abbrev col (g : Fin 4) (j : Fin 1024) : Fin 4096 := ⟨g.val * 1024 + j.val, by omega⟩

/-- One block of 256 batch rows against the side-by-side weights: row `p` of the block's `x` against column `n` of the
    transposed input weights, plus row `p` of the block's `h` against column `n` of the transposed hidden weights, plus
    the bias row at `n`. -/
def blockPre (xb hb : FVec Ideal ⟨2, ![256, 1024]⟩ .f32) (wx wh : FVec Ideal ⟨2, ![1024, 4096]⟩ .bf16)
    (b : FVec Ideal ⟨2, ![1, 4096]⟩ .f32) (p : Fin 256) (n : Fin 4096) : EReal :=
  ((∑ k : Fin 1024, xb (ix2 p k) * wx (ix2 k n)) + (∑ k : Fin 1024, hb (ix2 p k) * wh (ix2 k n))) + b (ix2 (0 : Fin 1) n)

/-- A gate's pre-activation at batch row `i`, gate column `j`. -/
def pre (x h : FVec Ideal Rows .f32) (W : FVec Ideal Wts .f32) (b : FVec Ideal Bias .f32) (i : Fin 16384) (j : Fin 1024) : EReal :=
  ((∑ k : Fin 1024, x (ix2 i k) * W (ix2 j (lo k))) + (∑ k : Fin 1024, h (ix2 i k) * W (ix2 j (hi k)))) + b (ix1 j)

/-- The new cell state at `(i, j)`. -/
def cell (x h c : FVec Ideal Rows .f32) (Wf : FVec Ideal Wts .f32) (bf : FVec Ideal Bias .f32) (Wu : FVec Ideal Wts .f32)
    (bu : FVec Ideal Bias .f32) (Wc : FVec Ideal Wts .f32) (bc : FVec Ideal Bias .f32) (i : Fin 16384) (j : Fin 1024) : EReal :=
  Ideal.logistic (pre x h Wf bf i j) * c (ix2 i j) + Ideal.logistic (pre x h Wu bu i j) * Ideal.tanh (pre x h Wc bc i j)

/-- The new hidden state at `(i, j)`. -/
def hidden (x h c : FVec Ideal Rows .f32) (Wf : FVec Ideal Wts .f32) (bf : FVec Ideal Bias .f32) (Wu : FVec Ideal Wts .f32)
    (bu : FVec Ideal Bias .f32) (Wc : FVec Ideal Wts .f32) (bc : FVec Ideal Bias .f32) (Wo : FVec Ideal Wts .f32)
    (bo : FVec Ideal Bias .f32) (i : Fin 16384) (j : Fin 1024) : EReal :=
  Ideal.tanh (cell x h c Wf bf Wu bu Wc bc i j) * Ideal.logistic (pre x h Wo bo i j)

/-- The new cell state as an array. -/
def Gc (x h c : FVec Ideal Rows .f32) (Wf : FVec Ideal Wts .f32) (bf : FVec Ideal Bias .f32) (Wu : FVec Ideal Wts .f32)
    (bu : FVec Ideal Bias .f32) (Wc : FVec Ideal Wts .f32) (bc : FVec Ideal Bias .f32) : FVec Ideal Rows .f32 :=
  fun idx => cell x h c Wf bf Wu bu Wc bc (idx 0) (idx 1)

/-- The new hidden state as an array. -/
def Gh (x h c : FVec Ideal Rows .f32) (Wf : FVec Ideal Wts .f32) (bf : FVec Ideal Bias .f32) (Wu : FVec Ideal Wts .f32)
    (bu : FVec Ideal Bias .f32) (Wc : FVec Ideal Wts .f32) (bc : FVec Ideal Bias .f32) (Wo : FVec Ideal Wts .f32)
    (bo : FVec Ideal Bias .f32) : FVec Ideal Rows .f32 :=
  fun idx => hidden x h c Wf bf Wu bu Wc bc Wo bo (idx 0) (idx 1)

theorem Gc_ix2 (x h c : FVec Ideal Rows .f32) (Wf : FVec Ideal Wts .f32) (bf : FVec Ideal Bias .f32) (Wu : FVec Ideal Wts .f32)
    (bu : FVec Ideal Bias .f32) (Wc : FVec Ideal Wts .f32) (bc : FVec Ideal Bias .f32) (i : Fin 16384) (j : Fin 1024) :
    Gc x h c Wf bf Wu bu Wc bc (ix2 i j) = cell x h c Wf bf Wu bu Wc bc i j := rfl

theorem Gh_ix2 (x h c : FVec Ideal Rows .f32) (Wf : FVec Ideal Wts .f32) (bf : FVec Ideal Bias .f32) (Wu : FVec Ideal Wts .f32)
    (bu : FVec Ideal Bias .f32) (Wc : FVec Ideal Wts .f32) (bc : FVec Ideal Bias .f32) (Wo : FVec Ideal Wts .f32)
    (bo : FVec Ideal Bias .f32) (i : Fin 16384) (j : Fin 1024) :
    Gh x h c Wf bf Wu bu Wc bc Wo bo (ix2 i j) = hidden x h c Wf bf Wu bu Wc bc Wo bo i j := rfl

/-- A sum over 2048 columns is the sum over the first 1024 plus the sum over the last 1024. -/
theorem sum_halves {M : Type*} [AddCommMonoid M] (f : Fin 2048 → M) :
    ∑ k : Fin 2048, f k = (∑ k : Fin 1024, f (lo k)) + ∑ k : Fin 1024, f (hi k) := by
  have e := Fin.sum_univ_add (a := 1024) (b := 1024) (f := f)
  refine e.trans ?_
  congr 1 <;> exact Finset.sum_congr rfl fun k _ => congrArg f (Fin.ext rfl)

/-- The float `1.0` denotes the real `1`. -/
theorem word_one : Ideal.ofBits .f32 0x3F800000#32 = 1 := by
  simp [Ideal.ofBits, Ideal.ieee, -EReal.coe_mul]; norm_num

end Cert.Spec

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.KAtIndex.lean ====
/-
  The kernel's arithmetic read at one element, and the side-by-side weights read back as the gates' own weights.
-/
import proofs.«177931_j33148557590883_2_alg».proof.Proof.Gen.KernelIdeal.Skeleton
import proofs.«177931_j33148557590883_2_alg».proof.Proof.KEntry
import proofs.«177931_j33148557590883_2_alg».proof.Proof.Spec
import proofs.«177931_j33148557590883_2_alg».proof.Proof.LibDense
import Idealize.ShloMosaic.Lib.Pipeline.Value
import Idealize.ShloMosaic.Lib.ValueLayout
import Idealize.ShloMosaic.Lib.StableHlo.Run

noncomputable section

namespace Cert.KernelIdeal.AtIndex

open Cert.KernelIdeal Cert.KernelIdeal.Gen Cert.KernelIdeal.Hand
open Idealize.ShloMosaic Idealize.ShloMosaic.TcCoe Idealize.ShloMosaic.ValueIdx Idealize.SL.Sem

/-! ## The block's arithmetic at one element -/

/-- The block product reads its left operand's row at the output's row, -/
theorem dot_lhs_row (i : S256x4096.Idx) (k : dot_S256x1024_S1024x4096_S256x4096_1_0_0_1_n_n.contr.Idx) :
    (dot_S256x1024_S1024x4096_S256x4096_1_0_0_1_n_n.lhsIdx i k 0).val = (i 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl
/-- its left operand's column at the contraction position, -/
theorem dot_lhs_col (i : S256x4096.Idx) (k : dot_S256x1024_S1024x4096_S256x4096_1_0_0_1_n_n.contr.Idx) :
    (dot_S256x1024_S1024x4096_S256x4096_1_0_0_1_n_n.lhsIdx i k 1).val = (k ⟨0, by decide⟩).val :=
  dot_S256x1024_S1024x4096_S256x4096_1_0_0_1_n_n.lhsIdx_val_of_single rfl i k
/-- its right operand's row at the contraction position, -/
theorem dot_rhs_row (i : S256x4096.Idx) (k : dot_S256x1024_S1024x4096_S256x4096_1_0_0_1_n_n.contr.Idx) :
    (dot_S256x1024_S1024x4096_S256x4096_1_0_0_1_n_n.rhsIdx i k 0).val = (k ⟨0, by decide⟩).val :=
  dot_S256x1024_S1024x4096_S256x4096_1_0_0_1_n_n.rhsIdx_val_of_single rfl i k
/-- and its right operand's column at the output's column. -/
theorem dot_rhs_col (i : S256x4096.Idx) (k : dot_S256x1024_S1024x4096_S256x4096_1_0_0_1_n_n.contr.Idx) :
    (dot_S256x1024_S1024x4096_S256x4096_1_0_0_1_n_n.rhsIdx i k 1).val = (i 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- One of the block's two products into the zero accumulator, at row `p` and column `n`: row `p` of the left operand
    against column `n` of the right one. -/
theorem blockDot_at (a : FVec Ideal S256x1024 .bf16) (w : FVec Ideal S1024x4096 .bf16) (p : Fin 256) (n : Fin 4096) :
    matmul dot_S256x1024_S1024x4096_S256x4096_1_0_0_1_n_n none a w (constant (F := Ideal) S256x4096 .f32 0x00000000#32) (ix2 p n)
      = ∑ k : Fin 1024, a (ix2 p k) * w (ix2 k n) :=
  matmul_zero_plain_apply dot_S256x1024_S1024x4096_S256x4096_1_0_0_1_n_n none rfl rfl dot_lhs_row dot_lhs_col dot_rhs_row dot_rhs_col a w p n

section Payloads

variable (v0 v1 v2 : FVec Ideal S256x1024 .f32) (v5 v7 : FVec Ideal S1024x4096 .bf16) (v12 : FVec Ideal S1x4096 .f32)
  (p : Fin 256) (q : Fin 1024)

/-- The gate block at row `p`, column `n`: the two products and the bias row. -/
theorem pay1_at (n : Fin 4096) :
    k0_pay1 (F := Ideal) v0 v1 v5 v7 v12 (ix2 p n) = Cert.Spec.blockPre v0 v1 v5 v7 v12 p n := by
  unfold k0_pay1 Cert.Spec.blockPre
  simp only [shapeCast_self]
  refine congrArg₂ (· + ·) (congrArg₂ (· + ·) ?_ ?_) ?_
  · exact blockDot_at _ v5 p n
  · exact blockDot_at _ v7 p n
  · exact broadcastTo_1b_ab_apply v12 _ p n

/-- A block of 1024 columns cut from the gate block at column offset `o`, at row `p` and column `q`: the gate block's
    element at column `o + q`. -/
theorem gateSlice_at (o : Nat) (h : S256x4096.Slices ![0, o] S256x1024) (n : Fin 4096) (hn : n.val = o + q.val) :
    extractStridedSlice S256x1024 ![0, o] (k0_pay1 (F := Ideal) v0 v1 v5 v7 v12) h (ix2 p q)
      = Cert.Spec.blockPre v0 v1 v5 v7 v12 p n :=
  (slice2_axis1_apply o (k0_pay1 (F := Ideal) v0 v1 v5 v7 v12) h p q n hn).trans (pay1_at v0 v1 v5 v7 v12 p n)

/-- The new cell state at row `p`, column `q`: the forget gate times the old cell state plus the update gate times the
    candidate. -/
theorem pay2_at :
    k0_pay2 (F := Ideal) v0 v1 v2 v5 v7 v12 (ix2 p q)
      = Ideal.logistic (Cert.Spec.blockPre v0 v1 v5 v7 v12 p (Cert.Spec.col 0 q)) * v2 (ix2 p q)
        + Ideal.logistic (Cert.Spec.blockPre v0 v1 v5 v7 v12 p (Cert.Spec.col 1 q))
          * Ideal.tanh (Cert.Spec.blockPre v0 v1 v5 v7 v12 p (Cert.Spec.col 2 q)) := by
  unfold k0_pay2
  refine congrArg₂ (· + ·) (congrArg₂ (· * ·) (congrArg Ideal.logistic ?_) rfl)
    (congrArg₂ (· * ·) (congrArg Ideal.logistic ?_) (congrArg Ideal.tanh ?_))
  · exact gateSlice_at v0 v1 v5 v7 v12 p q 0 _ (Cert.Spec.col 0 q) (by show 0 * 1024 + q.val = 0 + q.val; omega)
  · exact gateSlice_at v0 v1 v5 v7 v12 p q 1024 _ (Cert.Spec.col 1 q) (by show 1 * 1024 + q.val = 1024 + q.val; omega)
  · exact gateSlice_at v0 v1 v5 v7 v12 p q 2048 _ (Cert.Spec.col 2 q) (by show 2 * 1024 + q.val = 2048 + q.val; omega)

/-- The new hidden state at row `p`, column `q`: the hyperbolic tangent of the new cell state times the output gate. -/
theorem pay3_at :
    k0_pay3 (F := Ideal) v0 v1 v2 v5 v7 v12 (ix2 p q)
      = Ideal.tanh (k0_pay2 (F := Ideal) v0 v1 v2 v5 v7 v12 (ix2 p q))
        * Ideal.logistic (Cert.Spec.blockPre v0 v1 v5 v7 v12 p (Cert.Spec.col 3 q)) := by
  unfold k0_pay3
  refine congrArg₂ (· * ·) rfl (congrArg Ideal.logistic ?_)
  exact gateSlice_at v0 v1 v5 v7 v12 p q 3072 _ (Cert.Spec.col 3 q) (by show 3 * 1024 + q.val = 3072 + q.val; omega)

end Payloads

/-! ## The side-by-side weights and the bias row read back as the gates' own -/

section Joins
variable {α : Type}

/-- Four `[1024, 1024]` arrays joined side by side, read at row `k` and column `col g j`: array `g` at `(k, j)`. -/
theorem sideBySide_at (x0 x1 x2 x3 : S1024x1024.Idx → α)
    (h : Shape.Concatenates ([(⟨S1024x1024, x0⟩ : (s : Shape) × (s.Idx → α)), ⟨S1024x1024, x1⟩, ⟨S1024x1024, x2⟩, ⟨S1024x1024, x3⟩].map (·.1)) S1024x4096 1)
    (k j : Fin 1024) :
    concatenate S1024x4096 1 [⟨S1024x1024, x0⟩, ⟨S1024x1024, x1⟩, ⟨S1024x1024, x2⟩, ⟨S1024x1024, x3⟩] h (ix2 k (Cert.Spec.col 0 j)) = x0 (ix2 k j)
    ∧ concatenate S1024x4096 1 [⟨S1024x1024, x0⟩, ⟨S1024x1024, x1⟩, ⟨S1024x1024, x2⟩, ⟨S1024x1024, x3⟩] h (ix2 k (Cert.Spec.col 1 j)) = x1 (ix2 k j)
    ∧ concatenate S1024x4096 1 [⟨S1024x1024, x0⟩, ⟨S1024x1024, x1⟩, ⟨S1024x1024, x2⟩, ⟨S1024x1024, x3⟩] h (ix2 k (Cert.Spec.col 2 j)) = x2 (ix2 k j)
    ∧ concatenate S1024x4096 1 [⟨S1024x1024, x0⟩, ⟨S1024x1024, x1⟩, ⟨S1024x1024, x2⟩, ⟨S1024x1024, x3⟩] h (ix2 k (Cert.Spec.col 3 j)) = x3 (ix2 k j) := by
  refine ⟨?_, ?_, ?_, ?_⟩
  · exact concatenate_apply_piece 1 _ h (ix2 k (Cert.Spec.col 0 j)) 0 (by simp) S1024x1024 x0 rfl rfl 0 rfl (ix2 k j)
      (fun b hb => match b, hb with | ⟨0, _⟩, _ => rfl | ⟨1, _⟩, hb => absurd rfl hb)
      (by show 0 + j.val = 0 * 1024 + j.val; omega)
  · exact concatenate_apply_piece 1 _ h (ix2 k (Cert.Spec.col 1 j)) 1 (by simp) S1024x1024 x1 rfl rfl 1024 rfl (ix2 k j)
      (fun b hb => match b, hb with | ⟨0, _⟩, _ => rfl | ⟨1, _⟩, hb => absurd rfl hb)
      (by show 1024 + j.val = 1 * 1024 + j.val; omega)
  · exact concatenate_apply_piece 1 _ h (ix2 k (Cert.Spec.col 2 j)) 2 (by simp) S1024x1024 x2 rfl rfl 2048 rfl (ix2 k j)
      (fun b hb => match b, hb with | ⟨0, _⟩, _ => rfl | ⟨1, _⟩, hb => absurd rfl hb)
      (by show 2048 + j.val = 2 * 1024 + j.val; omega)
  · exact concatenate_apply_piece 1 _ h (ix2 k (Cert.Spec.col 3 j)) 3 (by simp) S1024x1024 x3 rfl rfl 3072 rfl (ix2 k j)
      (fun b hb => match b, hb with | ⟨0, _⟩, _ => rfl | ⟨1, _⟩, hb => absurd rfl hb)
      (by show 3072 + j.val = 3 * 1024 + j.val; omega)

/-- Four `[1024]` arrays joined end to end, read at `col g j`: array `g` at `j`. -/
theorem endToEnd_at (x0 x1 x2 x3 : S1024.Idx → α)
    (h : Shape.Concatenates ([(⟨S1024, x0⟩ : (s : Shape) × (s.Idx → α)), ⟨S1024, x1⟩, ⟨S1024, x2⟩, ⟨S1024, x3⟩].map (·.1)) S4096 0)
    (j : Fin 1024) :
    concatenate S4096 0 [⟨S1024, x0⟩, ⟨S1024, x1⟩, ⟨S1024, x2⟩, ⟨S1024, x3⟩] h (ix1 (Cert.Spec.col 0 j)) = x0 (ix1 j)
    ∧ concatenate S4096 0 [⟨S1024, x0⟩, ⟨S1024, x1⟩, ⟨S1024, x2⟩, ⟨S1024, x3⟩] h (ix1 (Cert.Spec.col 1 j)) = x1 (ix1 j)
    ∧ concatenate S4096 0 [⟨S1024, x0⟩, ⟨S1024, x1⟩, ⟨S1024, x2⟩, ⟨S1024, x3⟩] h (ix1 (Cert.Spec.col 2 j)) = x2 (ix1 j)
    ∧ concatenate S4096 0 [⟨S1024, x0⟩, ⟨S1024, x1⟩, ⟨S1024, x2⟩, ⟨S1024, x3⟩] h (ix1 (Cert.Spec.col 3 j)) = x3 (ix1 j) := by
  refine ⟨?_, ?_, ?_, ?_⟩
  · exact concatenate_apply_piece 0 _ h (ix1 (Cert.Spec.col 0 j)) 0 (by simp) S1024 x0 rfl rfl 0 rfl (ix1 j)
      (fun b hb => match b, hb with | ⟨0, _⟩, hb => absurd rfl hb)
      (by show 0 + j.val = 0 * 1024 + j.val; omega)
  · exact concatenate_apply_piece 0 _ h (ix1 (Cert.Spec.col 1 j)) 1 (by simp) S1024 x1 rfl rfl 1024 rfl (ix1 j)
      (fun b hb => match b, hb with | ⟨0, _⟩, hb => absurd rfl hb)
      (by show 1024 + j.val = 1 * 1024 + j.val; omega)
  · exact concatenate_apply_piece 0 _ h (ix1 (Cert.Spec.col 2 j)) 2 (by simp) S1024 x2 rfl rfl 2048 rfl (ix1 j)
      (fun b hb => match b, hb with | ⟨0, _⟩, hb => absurd rfl hb)
      (by show 2048 + j.val = 2 * 1024 + j.val; omega)
  · exact concatenate_apply_piece 0 _ h (ix1 (Cert.Spec.col 3 j)) 3 (by simp) S1024 x3 rfl rfl 3072 rfl (ix1 j)
      (fun b hb => match b, hb with | ⟨0, _⟩, hb => absurd rfl hb)
      (by show 3072 + j.val = 3 * 1024 + j.val; omega)

end Joins

/-- One half of a gate's weights, cut from column `o`, transposed and rounded, read at `(k, j)`: the gate's weight
    at row `j`, column `o + k`. -/
theorem half_at (W : FVec Ideal S1024x2048 .f32) (o : Nat) (h : S1024x2048.Slices ![0, o] S1024x1024) (k j : Fin 1024)
    (k' : Fin 2048) (hk' : k'.val = o + k.val) :
    (truncf .bf16 (transpose S1024x1024 [1, 0] (extractStridedSlice S1024x1024 ![0, o] W h) transposes_S1024x1024_S1024x1024_1_0)
        bitsLt_bf16_f32 : FVec Ideal S1024x1024 .bf16) (ix2 k j) = W (ix2 j k') :=
  show transpose S1024x1024 [1, 0] (extractStridedSlice S1024x1024 ![0, o] W h) transposes_S1024x1024_S1024x1024_1_0 (ix2 k j) = _ from
    (transpose_ix2_apply _ _ k j).trans (slice2_axis1_apply o W h j k k' hk')

section Launched

variable (m : (ℓ : Loc nD τ sig) → Buf (Elt Ideal) ℓ) (c : Dev nD)

/-- A gate's weights cut from column `o`, transposed and rounded: one of the eight blocks the host lays side by side. -/
abbrev halfOf (W : FVec Ideal S1024x2048 .f32) (o : Nat) (h : S1024x2048.Slices ![0, o] S1024x1024) : FVec Ideal S1024x1024 .bf16 :=
  truncf .bf16 (transpose S1024x1024 [1, 0] (extractStridedSlice S1024x1024 ![0, o] W h) transposes_S1024x1024_S1024x1024_1_0) bitsLt_bf16_f32

/-- The input weights as launched: the four gates' input halves side by side. -/
theorem wx_eq :
    (V m c main_v24 : S1024x4096.Idx → EReal)
      = concatenate S1024x4096 1
          [⟨S1024x1024, halfOf (m ((c : Thread nD τ).loc main_arg3)) 0 slices_S1024x2048_S1024x1024_0_0⟩,
           ⟨S1024x1024, halfOf (m ((c : Thread nD τ).loc main_arg5)) 0 slices_S1024x2048_S1024x1024_0_0⟩,
           ⟨S1024x1024, halfOf (m ((c : Thread nD τ).loc main_arg7)) 0 slices_S1024x2048_S1024x1024_0_0⟩,
           ⟨S1024x1024, halfOf (m ((c : Thread nD τ).loc main_arg9)) 0 slices_S1024x2048_S1024x1024_0_0⟩]
          concatenates_S1024x1024_S1024x1024_S1024x1024_S1024x1024_S1024x4096_d1 := by
  dsimp only [V, hostOps0]
  after_results_simp
  rfl

/-- The hidden weights as launched: the four gates' hidden halves side by side. -/
theorem wh_eq :
    (V m c main_v25 : S1024x4096.Idx → EReal)
      = concatenate S1024x4096 1
          [⟨S1024x1024, halfOf (m ((c : Thread nD τ).loc main_arg3)) 1024 slices_S1024x2048_S1024x1024_0_1024⟩,
           ⟨S1024x1024, halfOf (m ((c : Thread nD τ).loc main_arg5)) 1024 slices_S1024x2048_S1024x1024_0_1024⟩,
           ⟨S1024x1024, halfOf (m ((c : Thread nD τ).loc main_arg7)) 1024 slices_S1024x2048_S1024x1024_0_1024⟩,
           ⟨S1024x1024, halfOf (m ((c : Thread nD τ).loc main_arg9)) 1024 slices_S1024x2048_S1024x1024_0_1024⟩]
          concatenates_S1024x1024_S1024x1024_S1024x1024_S1024x1024_S1024x4096_d1 := by
  dsimp only [V, hostOps0]
  after_results_simp
  rfl

/-- The bias row as launched: the four gates' biases end to end, as one row. -/
theorem b_eq :
    (V m c main_v27 : S1x4096.Idx → EReal)
      = shapeCast S1x4096
          (concatenate S4096 0
            [⟨S1024, (m ((c : Thread nD τ).loc main_arg4) : S1024.Idx → EReal)⟩,
             ⟨S1024, (m ((c : Thread nD τ).loc main_arg6) : S1024.Idx → EReal)⟩,
             ⟨S1024, (m ((c : Thread nD τ).loc main_arg8) : S1024.Idx → EReal)⟩,
             ⟨S1024, (m ((c : Thread nD τ).loc main_arg10) : S1024.Idx → EReal)⟩]
            concatenates_S1024_S1024_S1024_S1024_S4096_d0)
          shapeCasts_S4096_S1x4096 := by
  dsimp only [V, hostOps0]
  after_results_simp
  rfl

end Launched

/-- The four gates' halves side by side, read at row `k` and column `col g j`: gate `g`'s weight at row `j`,
    column `o + k`. -/
theorem joinedHalves_at (W0 W1 W2 W3 : FVec Ideal S1024x2048 .f32) (o : Nat) (h : S1024x2048.Slices ![0, o] S1024x1024)
    (hc : Shape.Concatenates ([(⟨S1024x1024, halfOf W0 o h⟩ : (s : Shape) × (s.Idx → EReal)), ⟨S1024x1024, halfOf W1 o h⟩,
      ⟨S1024x1024, halfOf W2 o h⟩, ⟨S1024x1024, halfOf W3 o h⟩].map (·.1)) S1024x4096 1)
    (k j : Fin 1024) (k' : Fin 2048) (hk' : k'.val = o + k.val) :
    concatenate S1024x4096 1 [⟨S1024x1024, halfOf W0 o h⟩, ⟨S1024x1024, halfOf W1 o h⟩, ⟨S1024x1024, halfOf W2 o h⟩,
        ⟨S1024x1024, halfOf W3 o h⟩] hc (ix2 k (Cert.Spec.col 0 j)) = W0 (ix2 j k')
    ∧ concatenate S1024x4096 1 [⟨S1024x1024, halfOf W0 o h⟩, ⟨S1024x1024, halfOf W1 o h⟩, ⟨S1024x1024, halfOf W2 o h⟩,
        ⟨S1024x1024, halfOf W3 o h⟩] hc (ix2 k (Cert.Spec.col 1 j)) = W1 (ix2 j k')
    ∧ concatenate S1024x4096 1 [⟨S1024x1024, halfOf W0 o h⟩, ⟨S1024x1024, halfOf W1 o h⟩, ⟨S1024x1024, halfOf W2 o h⟩,
        ⟨S1024x1024, halfOf W3 o h⟩] hc (ix2 k (Cert.Spec.col 2 j)) = W2 (ix2 j k')
    ∧ concatenate S1024x4096 1 [⟨S1024x1024, halfOf W0 o h⟩, ⟨S1024x1024, halfOf W1 o h⟩, ⟨S1024x1024, halfOf W2 o h⟩,
        ⟨S1024x1024, halfOf W3 o h⟩] hc (ix2 k (Cert.Spec.col 3 j)) = W3 (ix2 j k') := by
  obtain ⟨e0, e1, e2, e3⟩ := sideBySide_at (halfOf W0 o h) (halfOf W1 o h) (halfOf W2 o h) (halfOf W3 o h) hc k j
  exact ⟨e0.trans (half_at W0 o h k j k' hk'), e1.trans (half_at W1 o h k j k' hk'), e2.trans (half_at W2 o h k j k' hk'),
    e3.trans (half_at W3 o h k j k' hk')⟩

/-- The four biases end to end as one row, read at column `col g j`: gate `g`'s bias at `j`. -/
theorem joinedBias_at (b0 b1 b2 b3 : FVec Ideal S1024 .f32)
    (hc : Shape.Concatenates ([(⟨S1024, b0⟩ : (s : Shape) × (s.Idx → EReal)), ⟨S1024, b1⟩, ⟨S1024, b2⟩, ⟨S1024, b3⟩].map (·.1)) S4096 0)
    (j : Fin 1024) :
    shapeCast S1x4096 (concatenate S4096 0 [⟨S1024, b0⟩, ⟨S1024, b1⟩, ⟨S1024, b2⟩, ⟨S1024, b3⟩] hc) shapeCasts_S4096_S1x4096
        (ix2 (0 : Fin 1) (Cert.Spec.col 0 j)) = b0 (ix1 j)
    ∧ shapeCast S1x4096 (concatenate S4096 0 [⟨S1024, b0⟩, ⟨S1024, b1⟩, ⟨S1024, b2⟩, ⟨S1024, b3⟩] hc) shapeCasts_S4096_S1x4096
        (ix2 (0 : Fin 1) (Cert.Spec.col 1 j)) = b1 (ix1 j)
    ∧ shapeCast S1x4096 (concatenate S4096 0 [⟨S1024, b0⟩, ⟨S1024, b1⟩, ⟨S1024, b2⟩, ⟨S1024, b3⟩] hc) shapeCasts_S4096_S1x4096
        (ix2 (0 : Fin 1) (Cert.Spec.col 2 j)) = b2 (ix1 j)
    ∧ shapeCast S1x4096 (concatenate S4096 0 [⟨S1024, b0⟩, ⟨S1024, b1⟩, ⟨S1024, b2⟩, ⟨S1024, b3⟩] hc) shapeCasts_S4096_S1x4096
        (ix2 (0 : Fin 1) (Cert.Spec.col 3 j)) = b3 (ix1 j) := by
  obtain ⟨e0, e1, e2, e3⟩ := endToEnd_at b0 b1 b2 b3 hc j
  exact ⟨(shapeCast_a_1a_apply _ _ 0 _).trans e0, (shapeCast_a_1a_apply _ _ 0 _).trans e1,
    (shapeCast_a_1a_apply _ _ 0 _).trans e2, (shapeCast_a_1a_apply _ _ 0 _).trans e3⟩

section AtIndex

variable (m : (ℓ : Loc nD τ sig) → Buf (Elt Ideal) ℓ) (c : Dev nD) (k j : Fin 1024)

/-- The launched input weights at row `k`, column `col g j`: gate `g`'s weight at row `j`, input column `k`. -/
theorem wx_at :
    (V m c main_v24 : S1024x4096.Idx → EReal) (ix2 k (Cert.Spec.col 0 j))
        = (m ((c : Thread nD τ).loc main_arg3) : S1024x2048.Idx → EReal) (ix2 j (Cert.Spec.lo k))
    ∧ (V m c main_v24 : S1024x4096.Idx → EReal) (ix2 k (Cert.Spec.col 1 j))
        = (m ((c : Thread nD τ).loc main_arg5) : S1024x2048.Idx → EReal) (ix2 j (Cert.Spec.lo k))
    ∧ (V m c main_v24 : S1024x4096.Idx → EReal) (ix2 k (Cert.Spec.col 2 j))
        = (m ((c : Thread nD τ).loc main_arg7) : S1024x2048.Idx → EReal) (ix2 j (Cert.Spec.lo k))
    ∧ (V m c main_v24 : S1024x4096.Idx → EReal) (ix2 k (Cert.Spec.col 3 j))
        = (m ((c : Thread nD τ).loc main_arg9) : S1024x2048.Idx → EReal) (ix2 j (Cert.Spec.lo k)) := by
  have e := wx_eq m c
  obtain ⟨e0, e1, e2, e3⟩ := joinedHalves_at (m ((c : Thread nD τ).loc main_arg3)) (m ((c : Thread nD τ).loc main_arg5))
    (m ((c : Thread nD τ).loc main_arg7)) (m ((c : Thread nD τ).loc main_arg9)) 0 slices_S1024x2048_S1024x1024_0_0
    concatenates_S1024x1024_S1024x1024_S1024x1024_S1024x1024_S1024x4096_d1 k j (Cert.Spec.lo k)
    (by show k.val = 0 + k.val; omega)
  exact ⟨(congrFun e _).trans e0, (congrFun e _).trans e1, (congrFun e _).trans e2, (congrFun e _).trans e3⟩

/-- The launched hidden weights at row `k`, column `col g j`: gate `g`'s weight at row `j`, hidden column `k`. -/
theorem wh_at :
    (V m c main_v25 : S1024x4096.Idx → EReal) (ix2 k (Cert.Spec.col 0 j))
        = (m ((c : Thread nD τ).loc main_arg3) : S1024x2048.Idx → EReal) (ix2 j (Cert.Spec.hi k))
    ∧ (V m c main_v25 : S1024x4096.Idx → EReal) (ix2 k (Cert.Spec.col 1 j))
        = (m ((c : Thread nD τ).loc main_arg5) : S1024x2048.Idx → EReal) (ix2 j (Cert.Spec.hi k))
    ∧ (V m c main_v25 : S1024x4096.Idx → EReal) (ix2 k (Cert.Spec.col 2 j))
        = (m ((c : Thread nD τ).loc main_arg7) : S1024x2048.Idx → EReal) (ix2 j (Cert.Spec.hi k))
    ∧ (V m c main_v25 : S1024x4096.Idx → EReal) (ix2 k (Cert.Spec.col 3 j))
        = (m ((c : Thread nD τ).loc main_arg9) : S1024x2048.Idx → EReal) (ix2 j (Cert.Spec.hi k)) := by
  have e := wh_eq m c
  obtain ⟨e0, e1, e2, e3⟩ := joinedHalves_at (m ((c : Thread nD τ).loc main_arg3)) (m ((c : Thread nD τ).loc main_arg5))
    (m ((c : Thread nD τ).loc main_arg7)) (m ((c : Thread nD τ).loc main_arg9)) 1024 slices_S1024x2048_S1024x1024_0_1024
    concatenates_S1024x1024_S1024x1024_S1024x1024_S1024x1024_S1024x4096_d1 k j (Cert.Spec.hi k) rfl
  exact ⟨(congrFun e _).trans e0, (congrFun e _).trans e1, (congrFun e _).trans e2, (congrFun e _).trans e3⟩

/-- The launched bias row at column `col g j`: gate `g`'s bias at `j`. -/
theorem b_at :
    (V m c main_v27 : S1x4096.Idx → EReal) (ix2 (0 : Fin 1) (Cert.Spec.col 0 j))
        = (m ((c : Thread nD τ).loc main_arg4) : S1024.Idx → EReal) (ix1 j)
    ∧ (V m c main_v27 : S1x4096.Idx → EReal) (ix2 (0 : Fin 1) (Cert.Spec.col 1 j))
        = (m ((c : Thread nD τ).loc main_arg6) : S1024.Idx → EReal) (ix1 j)
    ∧ (V m c main_v27 : S1x4096.Idx → EReal) (ix2 (0 : Fin 1) (Cert.Spec.col 2 j))
        = (m ((c : Thread nD τ).loc main_arg8) : S1024.Idx → EReal) (ix1 j)
    ∧ (V m c main_v27 : S1x4096.Idx → EReal) (ix2 (0 : Fin 1) (Cert.Spec.col 3 j))
        = (m ((c : Thread nD τ).loc main_arg10) : S1024.Idx → EReal) (ix1 j) := by
  have e := b_eq m c
  obtain ⟨e0, e1, e2, e3⟩ := joinedBias_at (m ((c : Thread nD τ).loc main_arg4)) (m ((c : Thread nD τ).loc main_arg6))
    (m ((c : Thread nD τ).loc main_arg8)) (m ((c : Thread nD τ).loc main_arg10))
    concatenates_S1024_S1024_S1024_S1024_S4096_d0 j
  exact ⟨(congrFun e _).trans e0, (congrFun e _).trans e1, (congrFun e _).trans e2, (congrFun e _).trans e3⟩

end AtIndex

end Cert.KernelIdeal.AtIndex

end
-- ==== Proof.KValue.lean ====
/-
  What the launch leaves in the two result arrays.

  One element of what the body stores is, by the body's arithmetic, the cell function of one row of the point's
  `x`, `h`, `c` blocks and one column of each gate in the side-by-side weights and bias.  The blocks are rows of the
  arguments, and column `j` of gate `g` in the side-by-side arrays is row `j` of that gate's own weights, so the
  element is the cell function of the ARGUMENTS at batch row `256 t + p`.  Each point writes its block back, the 64
  blocks cover the result arrays, so the arrays end as the cell function of the arguments.
-/
import proofs.«177931_j33148557590883_2_alg».proof.Proof.KBlocks
import proofs.«177931_j33148557590883_2_alg».proof.Proof.KAtIndex
import proofs.«177931_j33148557590883_2_alg».proof.Proof.Spec
import Idealize.ShloMosaic.Lib.Pipeline.Value

noncomputable section

namespace Cert.KernelIdeal.KValue

open Cert Cert.KernelIdeal Cert.KernelIdeal.Gen Cert.KernelIdeal.Hand Cert.KernelIdeal.AtIndex
open Idealize.ShloMosaic Idealize.ShloMosaic.TcCoe Idealize.ShloMosaic.ValueIdx Idealize.SL.Sem
open Idealize.ShloMosaic.Pipeline (Dat)

/-- One element of the body's two stored values, from one row of the batch blocks and one column per gate of the
    side-by-side weights and bias, each identified with the arguments' elements: the cell function there. -/
theorem block_is_cell (x0 x1 x2 : Vec Ideal S256x1024 .f32) (x3 x4 : Vec Ideal S1024x4096 .bf16) (x5 : Vec Ideal S1x4096 .f32)
    (X H C : FVec Ideal Spec.Rows .f32) (Wf : FVec Ideal Spec.Wts .f32) (bf : FVec Ideal Spec.Bias .f32)
    (Wu : FVec Ideal Spec.Wts .f32) (bu : FVec Ideal Spec.Bias .f32) (Wc : FVec Ideal Spec.Wts .f32) (bc : FVec Ideal Spec.Bias .f32)
    (Wo : FVec Ideal Spec.Wts .f32) (bo : FVec Ideal Spec.Bias .f32)
    (i : Fin 16384) (p : Fin 256) (q : Fin 1024)
    (hx : ∀ k : Fin 1024, x0 (ix2 p k) = X (ix2 i k)) (hh : ∀ k : Fin 1024, x1 (ix2 p k) = H (ix2 i k))
    (hc : x2 (ix2 p q) = C (ix2 i q))
    (hwx : ∀ k : Fin 1024, x3 (ix2 k (Spec.col 0 q)) = Wf (ix2 q (Spec.lo k)) ∧ x3 (ix2 k (Spec.col 1 q)) = Wu (ix2 q (Spec.lo k))
      ∧ x3 (ix2 k (Spec.col 2 q)) = Wc (ix2 q (Spec.lo k)) ∧ x3 (ix2 k (Spec.col 3 q)) = Wo (ix2 q (Spec.lo k)))
    (hwh : ∀ k : Fin 1024, x4 (ix2 k (Spec.col 0 q)) = Wf (ix2 q (Spec.hi k)) ∧ x4 (ix2 k (Spec.col 1 q)) = Wu (ix2 q (Spec.hi k))
      ∧ x4 (ix2 k (Spec.col 2 q)) = Wc (ix2 q (Spec.hi k)) ∧ x4 (ix2 k (Spec.col 3 q)) = Wo (ix2 q (Spec.hi k)))
    (hb : x5 (ix2 (0 : Fin 1) (Spec.col 0 q)) = bf (ix1 q) ∧ x5 (ix2 (0 : Fin 1) (Spec.col 1 q)) = bu (ix1 q)
      ∧ x5 (ix2 (0 : Fin 1) (Spec.col 2 q)) = bc (ix1 q) ∧ x5 (ix2 (0 : Fin 1) (Spec.col 3 q)) = bo (ix1 q)) :
    k0_pay2 (F := Ideal) x0 x1 x2 x3 x4 x5 (ix2 p q) = Spec.cell X H C Wf bf Wu bu Wc bc i q
    ∧ k0_pay3 (F := Ideal) x0 x1 x2 x3 x4 x5 (ix2 p q) = Spec.hidden X H C Wf bf Wu bu Wc bc Wo bo i q := by
  have pre_g : ∀ (g : Fin 4) (W : FVec Ideal Spec.Wts .f32) (b : FVec Ideal Spec.Bias .f32),
      (∀ k : Fin 1024, x3 (ix2 k (Spec.col g q)) = W (ix2 q (Spec.lo k))) → (∀ k : Fin 1024, x4 (ix2 k (Spec.col g q)) = W (ix2 q (Spec.hi k)))
      → x5 (ix2 (0 : Fin 1) (Spec.col g q)) = b (ix1 q) → Spec.blockPre x0 x1 x3 x4 x5 p (Spec.col g q) = Spec.pre X H W b i q := by
    intro g W b hW hW' hbb
    unfold Spec.blockPre Spec.pre
    simp only [hx, hh, hW, hW', hbb]
  have ef := pre_g 0 Wf bf (fun k => (hwx k).1) (fun k => (hwh k).1) hb.1
  have eu := pre_g 1 Wu bu (fun k => (hwx k).2.1) (fun k => (hwh k).2.1) hb.2.1
  have ec := pre_g 2 Wc bc (fun k => (hwx k).2.2.1) (fun k => (hwh k).2.2.1) hb.2.2.1
  have eo := pre_g 3 Wo bo (fun k => (hwx k).2.2.2) (fun k => (hwh k).2.2.2) hb.2.2.2
  have e2 : k0_pay2 (F := Ideal) x0 x1 x2 x3 x4 x5 (ix2 p q) = Spec.cell X H C Wf bf Wu bu Wc bc i q := by
    rw [pay2_at, ef, eu, ec, hc]; rfl
  exact ⟨e2, by rw [pay3_at, e2, eo]; rfl⟩

variable (m : (ℓ : Loc nD τ sig) → Buf (Elt Ideal) ℓ) (ρ : Dev nD → PrngReg)

/-- The new hidden state of the arguments as launched, as the first result's array. -/
abbrev GhOf (c : Dev nD) : Buf (Elt Ideal) ((c.tc : Thread nD τ).loc main_v28_0) :=
  Spec.Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The new cell state of the arguments as launched, as the second result's array. -/
abbrev GcOf (c : Dev nD) : Buf (Elt Ideal) ((c.tc : Thread nD τ).loc main_v28_1) :=
  Spec.Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- Element `j` of what point `t` leaves in the new hidden state block is the new hidden state at batch row `256 t + j₀`, column `j₁`. -/
theorem hidden_at (c : Dev nD) (t : Fin cfg0.N) (j : S256x1024.Idx) (i : S16384x1024.Idx)
    (h0 : (i 0).val = 256 * t.val + (j 0).val) (h1 : (i 1).val = (j 1).val) :
    k0_pay3 (F := Ideal) (iblk m c 0 t) (iblk m c 1 t) (iblk m c 2 t) (iblk m c 3 t) (iblk m c 4 t) (iblk m c 5 t) j = GhOf m c i := by
  obtain ⟨p, q, rfl⟩ : ∃ (p : Fin 256) (q : Fin 1024), j = ix2 p q := ⟨j 0, j 1, eq_ix2 j⟩
  obtain ⟨i0, i1, rfl⟩ : ∃ (i0 : Fin 16384) (i1 : Fin 1024), i = ix2 i0 i1 := ⟨i 0, i 1, eq_ix2 i⟩
  obtain rfl : i1 = q := Fin.ext h1
  exact (block_is_cell (iblk m c 0 t) (iblk m c 1 t) (iblk m c 2 t) (iblk m c 3 t) (iblk m c 4 t) (iblk m c 5 t) _ _ _ _ _ _ _ _ _ _ _ i0 p i1
    (fun k => rows0_apply m c t (ix2 p k) (ix2 i0 k) h0 rfl)
    (fun k => rows1_apply m c t (ix2 p k) (ix2 i0 k) h0 rfl)
    (rows2_apply m c t (ix2 p i1) (ix2 i0 i1) h0 rfl)
    (fun k => ⟨(wts3_apply m c t _).trans (wx_at m c k i1).1, (wts3_apply m c t _).trans (wx_at m c k i1).2.1,
      (wts3_apply m c t _).trans (wx_at m c k i1).2.2.1, (wts3_apply m c t _).trans (wx_at m c k i1).2.2.2⟩)
    (fun k => ⟨(wts4_apply m c t _).trans (wh_at m c k i1).1, (wts4_apply m c t _).trans (wh_at m c k i1).2.1,
      (wts4_apply m c t _).trans (wh_at m c k i1).2.2.1, (wts4_apply m c t _).trans (wh_at m c k i1).2.2.2⟩)
    ⟨(bias5_apply m c t _).trans (b_at m c i1).1, (bias5_apply m c t _).trans (b_at m c i1).2.1,
      (bias5_apply m c t _).trans (b_at m c i1).2.2.1, (bias5_apply m c t _).trans (b_at m c i1).2.2.2⟩).2

/-- What point `t` writes back to the new hidden state array is block `t` of the new hidden state function of the arguments. -/
theorem flushed6_eq (c : Dev nD) (t : Fin cfg0.N) :
    (dats m 0 c).flushed 6 t = ((cfg0.win 6).blk t).view.read (Elt Ideal) (GhOf m c) := by
  show (cfg0.win 6).cut (grid0.coords t) ((dats m 0 c).after 6 t) = _
  rw [after0_6]
  unfold out0_6
  rw [View.canon_unit_zero hz]
  simp only [View.ld_unit_zero (S := S256x1024) hz, View.ld_unit_zero (S := S1024x4096) hz, View.ld_unit_zero (S := S1x4096) hz]
  funext j
  obtain ⟨e0, e1⟩ := (idx_facts t).2.2.2.2.2.2.1
  refine hidden_at m c t j (((cfg0.win 6).blk t).view.emb j) ?_ ?_
  · show win0_6.index t 0 * 256 + 1 * (j 0).val = 256 * t.val + (j 0).val
    rw [e0]; omega
  · show win0_6.index t 1 * 1024 + 1 * (j 1).val = (j 1).val
    rw [e1]; omega

/-- An index of the new hidden state array is in point `t`'s block iff each coordinate is in the block's range. -/
theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v28_0).slice (win0_6.rect t)).set ↔ _
  rw [View.set_slice_whole, Rect.mem_set_unit]
  exact Iff.rfl

/-- Row `r` of the new hidden state array lies in the block of point `r / 256`: the 64 blocks cover the array. -/
theorem cover6 (i : S16384x1024.Idx) : ∃ t : Fin cfg0.N, (cfg0.win 6).flush t = true ∧ i ∈ ((cfg0.win 6).blk t).view.set := by
  have hN : cfg0.N = 64 := N_0
  have hi0 : (i 0).val < 16384 := (i 0).isLt
  have hi1 : (i 1).val < 1024 := (i 1).isLt
  have ht : (i 0).val / 256 < cfg0.N := by rw [hN]; omega
  refine ⟨⟨(i 0).val / 256, ht⟩, flush0_6 _, ?_⟩
  rw [mem_blk6]
  obtain ⟨e0, e1⟩ := (idx_facts ⟨(i 0).val / 256, ht⟩).2.2.2.2.2.2.1
  intro a
  match a with
  | ⟨0, _⟩ =>
    show win0_6.index ⟨(i 0).val / 256, ht⟩ 0 * 256 ≤ (i 0).val ∧ (i 0).val < win0_6.index ⟨(i 0).val / 256, ht⟩ 0 * 256 + 256
    rw [e0]; show (i 0).val / 256 * 256 ≤ (i 0).val ∧ (i 0).val < (i 0).val / 256 * 256 + 256; omega
  | ⟨1, _⟩ =>
    show win0_6.index ⟨(i 0).val / 256, ht⟩ 1 * 1024 ≤ (i 1).val ∧ (i 1).val < win0_6.index ⟨(i 0).val / 256, ht⟩ 1 * 1024 + 1024
    rw [e1]; omega

/-- So the new hidden state array ends as the new hidden state function of the arguments. -/
theorem final6 (c : Dev nD) : (dats m 0 c).arrAt 6 cfg0.N = GhOf m c :=
  (dats m 0 c).arrAt_eq_of_cover 6 (GhOf m c) (fun t _ => flushed6_eq m c t) cover6

/-- Element `j` of what point `t` leaves in the new cell state block is the new cell state at batch row `256 t + j₀`, column `j₁`. -/
theorem cell_at (c : Dev nD) (t : Fin cfg0.N) (j : S256x1024.Idx) (i : S16384x1024.Idx)
    (h0 : (i 0).val = 256 * t.val + (j 0).val) (h1 : (i 1).val = (j 1).val) :
    k0_pay2 (F := Ideal) (iblk m c 0 t) (iblk m c 1 t) (iblk m c 2 t) (iblk m c 3 t) (iblk m c 4 t) (iblk m c 5 t) j = GcOf m c i := by
  obtain ⟨p, q, rfl⟩ : ∃ (p : Fin 256) (q : Fin 1024), j = ix2 p q := ⟨j 0, j 1, eq_ix2 j⟩
  obtain ⟨i0, i1, rfl⟩ : ∃ (i0 : Fin 16384) (i1 : Fin 1024), i = ix2 i0 i1 := ⟨i 0, i 1, eq_ix2 i⟩
  obtain rfl : i1 = q := Fin.ext h1
  exact (block_is_cell (iblk m c 0 t) (iblk m c 1 t) (iblk m c 2 t) (iblk m c 3 t) (iblk m c 4 t) (iblk m c 5 t) _ _ _ _ _ _ _ _ _ _ _ i0 p i1
    (fun k => rows0_apply m c t (ix2 p k) (ix2 i0 k) h0 rfl)
    (fun k => rows1_apply m c t (ix2 p k) (ix2 i0 k) h0 rfl)
    (rows2_apply m c t (ix2 p i1) (ix2 i0 i1) h0 rfl)
    (fun k => ⟨(wts3_apply m c t _).trans (wx_at m c k i1).1, (wts3_apply m c t _).trans (wx_at m c k i1).2.1,
      (wts3_apply m c t _).trans (wx_at m c k i1).2.2.1, (wts3_apply m c t _).trans (wx_at m c k i1).2.2.2⟩)
    (fun k => ⟨(wts4_apply m c t _).trans (wh_at m c k i1).1, (wts4_apply m c t _).trans (wh_at m c k i1).2.1,
      (wts4_apply m c t _).trans (wh_at m c k i1).2.2.1, (wts4_apply m c t _).trans (wh_at m c k i1).2.2.2⟩)
    ⟨(bias5_apply m c t _).trans (b_at m c i1).1, (bias5_apply m c t _).trans (b_at m c i1).2.1,
      (bias5_apply m c t _).trans (b_at m c i1).2.2.1, (bias5_apply m c t _).trans (b_at m c i1).2.2.2⟩).1

/-- What point `t` writes back to the new cell state array is block `t` of the new cell state function of the arguments. -/
theorem flushed7_eq (c : Dev nD) (t : Fin cfg0.N) :
    (dats m 0 c).flushed 7 t = ((cfg0.win 7).blk t).view.read (Elt Ideal) (GcOf m c) := by
  show (cfg0.win 7).cut (grid0.coords t) ((dats m 0 c).after 7 t) = _
  rw [after0_7]
  unfold out0_7
  rw [View.canon_unit_zero hz]
  simp only [View.ld_unit_zero (S := S256x1024) hz, View.ld_unit_zero (S := S1024x4096) hz, View.ld_unit_zero (S := S1x4096) hz]
  funext j
  obtain ⟨e0, e1⟩ := (idx_facts t).2.2.2.2.2.2.2
  refine cell_at m c t j (((cfg0.win 7).blk t).view.emb j) ?_ ?_
  · show win0_7.index t 0 * 256 + 1 * (j 0).val = 256 * t.val + (j 0).val
    rw [e0]; omega
  · show win0_7.index t 1 * 1024 + 1 * (j 1).val = (j 1).val
    rw [e1]; omega

/-- An index of the new cell state array is in point `t`'s block iff each coordinate is in the block's range. -/
theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v28_1).slice (win0_7.rect t)).set ↔ _
  rw [View.set_slice_whole, Rect.mem_set_unit]
  exact Iff.rfl

/-- Row `r` of the new cell state array lies in the block of point `r / 256`: the 64 blocks cover the array. -/
theorem cover7 (i : S16384x1024.Idx) : ∃ t : Fin cfg0.N, (cfg0.win 7).flush t = true ∧ i ∈ ((cfg0.win 7).blk t).view.set := by
  have hN : cfg0.N = 64 := N_0
  have hi0 : (i 0).val < 16384 := (i 0).isLt
  have hi1 : (i 1).val < 1024 := (i 1).isLt
  have ht : (i 0).val / 256 < cfg0.N := by rw [hN]; omega
  refine ⟨⟨(i 0).val / 256, ht⟩, flush0_7 _, ?_⟩
  rw [mem_blk7]
  obtain ⟨e0, e1⟩ := (idx_facts ⟨(i 0).val / 256, ht⟩).2.2.2.2.2.2.2
  intro a
  match a with
  | ⟨0, _⟩ =>
    show win0_7.index ⟨(i 0).val / 256, ht⟩ 0 * 256 ≤ (i 0).val ∧ (i 0).val < win0_7.index ⟨(i 0).val / 256, ht⟩ 0 * 256 + 256
    rw [e0]; show (i 0).val / 256 * 256 ≤ (i 0).val ∧ (i 0).val < (i 0).val / 256 * 256 + 256; omega
  | ⟨1, _⟩ =>
    show win0_7.index ⟨(i 0).val / 256, ht⟩ 1 * 1024 ≤ (i 1).val ∧ (i 1).val < win0_7.index ⟨(i 0).val / 256, ht⟩ 1 * 1024 + 1024
    rw [e1]; omega

/-- So the new cell state array ends as the new cell state function of the arguments. -/
theorem final7 (c : Dev nD) : (dats m 0 c).arrAt 7 cfg0.N = GcOf m c :=
  (dats m 0 c).arrAt_eq_of_cover 7 (GcOf m c) (fun t _ => flushed7_eq m c t) cover7

/-! ## The run, read -/

/-- Every execution of the idealized kernel's program terminates with the two results at the cell function of the
    arguments and the arguments unchanged. -/
theorem run : θ_run defs (onTc (τ := τ) (main (F := Ideal))) ⟨m, fun _ => 0, ρ⟩ fun r => ∀ c : Dev nD,
      r.2.mem ((c.tc : Thread nD τ).loc main_v28_0) = GhOf m c
      ∧ r.2.mem ((c.tc : Thread nD τ).loc main_v28_1) = GcOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.KValue

end
-- ==== Proof.RefSpec.lean ====
/-
  The reference program computes the LSTM cell: its two results, read index by index, are the cell function of the
  argument arrays.
-/
import proofs.«177931_j33148557590883_2_alg».proof.Proof.Gen.ReferenceIdeal.Read
import proofs.«177931_j33148557590883_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen
open Idealize.ShloMosaic.ValueIdx
open Cert.Spec

/-! ## The three joins, read at an index -/

/-- The first 1024 columns of the joined row `(x i, h i)` are the row `x i`. -/
theorem v0_lo (x0 x1 : FVec Ideal Rows .f32) (i : Fin 16384) (k : Fin 1024) :
    Read.val_main_v0 (F := Ideal) x0 x1 (ix2 i (lo k)) = x0 (ix2 i k) := by
  unfold Read.val_main_v0
  exact concatenate_pair_apply_left 1 x0 x1 _ (ix2 i (lo k)) rfl (ix2 i k)
    (fun b => match b with | ⟨0, _⟩ => rfl | ⟨1, _⟩ => rfl)

/-- The last 1024 columns of the joined row `(x i, h i)` are the row `h i`. -/
theorem v0_hi (x0 x1 : FVec Ideal Rows .f32) (i : Fin 16384) (k : Fin 1024) :
    Read.val_main_v0 (F := Ideal) x0 x1 (ix2 i (hi k)) = x1 (ix2 i k) := by
  unfold Read.val_main_v0
  exact concatenate_pair_apply_right 1 x0 x1 _ (ix2 i (hi k)) rfl rfl (ix2 i k)
    (fun b hb => match b, hb with | ⟨0, _⟩, _ => rfl | ⟨1, _⟩, hb => absurd rfl hb)
    (Nat.add_comm _ _)

/-- Rows `col 0 j` of the stacked weights are the forget gate's rows. -/
theorem v1_at0 (x3 x5 x7 x9 : FVec Ideal Wts .f32) (j : Fin 1024) (k : Fin 2048) :
    Read.val_main_v1 (F := Ideal) x3 x5 x7 x9 (ix2 (col 0 j) k) = x3 (ix2 j k) := by
  unfold Read.val_main_v1
  exact concatenate_apply_piece 0 _ _ (ix2 (col 0 j) k) 0 (by simp) S1024x2048 x3 rfl rfl 0 rfl (ix2 j k)
    (fun b hb => match b, hb with | ⟨0, _⟩, hb => absurd rfl hb | ⟨1, _⟩, _ => rfl)
    (by show 0 + j.val = 0 * 1024 + j.val; omega)

/-- Rows `col 1 j` of the stacked weights are the update gate's rows. -/
theorem v1_at1 (x3 x5 x7 x9 : FVec Ideal Wts .f32) (j : Fin 1024) (k : Fin 2048) :
    Read.val_main_v1 (F := Ideal) x3 x5 x7 x9 (ix2 (col 1 j) k) = x5 (ix2 j k) := by
  unfold Read.val_main_v1
  exact concatenate_apply_piece 0 _ _ (ix2 (col 1 j) k) 1 (by simp) S1024x2048 x5 rfl rfl 1024 rfl (ix2 j k)
    (fun b hb => match b, hb with | ⟨0, _⟩, hb => absurd rfl hb | ⟨1, _⟩, _ => rfl)
    (by show 1024 + j.val = 1 * 1024 + j.val; omega)

/-- Rows `col 2 j` of the stacked weights are the candidate gate's rows. -/
theorem v1_at2 (x3 x5 x7 x9 : FVec Ideal Wts .f32) (j : Fin 1024) (k : Fin 2048) :
    Read.val_main_v1 (F := Ideal) x3 x5 x7 x9 (ix2 (col 2 j) k) = x7 (ix2 j k) := by
  unfold Read.val_main_v1
  exact concatenate_apply_piece 0 _ _ (ix2 (col 2 j) k) 2 (by simp) S1024x2048 x7 rfl rfl 2048 rfl (ix2 j k)
    (fun b hb => match b, hb with | ⟨0, _⟩, hb => absurd rfl hb | ⟨1, _⟩, _ => rfl)
    (by show 2048 + j.val = 2 * 1024 + j.val; omega)

/-- Rows `col 3 j` of the stacked weights are the output gate's rows. -/
theorem v1_at3 (x3 x5 x7 x9 : FVec Ideal Wts .f32) (j : Fin 1024) (k : Fin 2048) :
    Read.val_main_v1 (F := Ideal) x3 x5 x7 x9 (ix2 (col 3 j) k) = x9 (ix2 j k) := by
  unfold Read.val_main_v1
  exact concatenate_apply_piece 0 _ _ (ix2 (col 3 j) k) 3 (by simp) S1024x2048 x9 rfl rfl 3072 rfl (ix2 j k)
    (fun b hb => match b, hb with | ⟨0, _⟩, hb => absurd rfl hb | ⟨1, _⟩, _ => rfl)
    (by show 3072 + j.val = 3 * 1024 + j.val; omega)

/-- Entry `col 0 j` of the joined biases is the forget gate's. -/
theorem v2_at0 (x4 x6 x8 x10 : FVec Ideal Bias .f32) (j : Fin 1024) :
    Read.val_main_v2 (F := Ideal) x4 x6 x8 x10 (ix1 (col 0 j)) = x4 (ix1 j) := by
  unfold Read.val_main_v2
  exact concatenate_apply_piece 0 _ _ (ix1 (col 0 j)) 0 (by simp) S1024 x4 rfl rfl 0 rfl (ix1 j)
    (fun b hb => match b, hb with | ⟨0, _⟩, hb => absurd rfl hb)
    (by show 0 + j.val = 0 * 1024 + j.val; omega)

/-- Entry `col 1 j` of the joined biases is the update gate's. -/
theorem v2_at1 (x4 x6 x8 x10 : FVec Ideal Bias .f32) (j : Fin 1024) :
    Read.val_main_v2 (F := Ideal) x4 x6 x8 x10 (ix1 (col 1 j)) = x6 (ix1 j) := by
  unfold Read.val_main_v2
  exact concatenate_apply_piece 0 _ _ (ix1 (col 1 j)) 1 (by simp) S1024 x6 rfl rfl 1024 rfl (ix1 j)
    (fun b hb => match b, hb with | ⟨0, _⟩, hb => absurd rfl hb)
    (by show 1024 + j.val = 1 * 1024 + j.val; omega)

/-- Entry `col 2 j` of the joined biases is the candidate gate's. -/
theorem v2_at2 (x4 x6 x8 x10 : FVec Ideal Bias .f32) (j : Fin 1024) :
    Read.val_main_v2 (F := Ideal) x4 x6 x8 x10 (ix1 (col 2 j)) = x8 (ix1 j) := by
  unfold Read.val_main_v2
  exact concatenate_apply_piece 0 _ _ (ix1 (col 2 j)) 2 (by simp) S1024 x8 rfl rfl 2048 rfl (ix1 j)
    (fun b hb => match b, hb with | ⟨0, _⟩, hb => absurd rfl hb)
    (by show 2048 + j.val = 2 * 1024 + j.val; omega)

/-- Entry `col 3 j` of the joined biases is the output gate's. -/
theorem v2_at3 (x4 x6 x8 x10 : FVec Ideal Bias .f32) (j : Fin 1024) :
    Read.val_main_v2 (F := Ideal) x4 x6 x8 x10 (ix1 (col 3 j)) = x10 (ix1 j) := by
  unfold Read.val_main_v2
  exact concatenate_apply_piece 0 _ _ (ix1 (col 3 j)) 3 (by simp) S1024 x10 rfl rfl 3072 rfl (ix1 j)
    (fun b hb => match b, hb with | ⟨0, _⟩, hb => absurd rfl hb)
    (by show 3072 + j.val = 3 * 1024 + j.val; omega)

/-! ## The gates' pre-activations -/

/-- The joined row `(x i, h i)` is read at `(i, k)` by the product at column `k`. -/
theorem lidx_ix2 (i : Fin 16384) (c : Fin 4096) (k : Fin 2048) :
    Read.lidx_main_v4 (ix2 i c) k = ix2 i k :=
  funext fun a => match a with | ⟨0, _⟩ => rfl | ⟨1, _⟩ => rfl

/-- The transposed weights at `(k, c)` are the stacked weights at `(c, k)`. -/
theorem ridx_ix2 (i : Fin 16384) (c : Fin 4096) (k : Fin 2048) :
    Read.idx_main_v3 (Read.ridx_main_v4 (ix2 i c) k) = ix2 c k :=
  funext fun a => match a with | ⟨0, _⟩ => rfl | ⟨1, _⟩ => rfl

/-- The bias broadcast over the batch rows at `(i, c)` is the joined bias at `c`. -/
theorem bidx_ix2 (i : Fin 16384) (c : Fin 4096) :
    Read.idx_main_v5 (Read.idx_main_v6 (ix2 i c)) = ix1 c :=
  funext fun a => match a with | ⟨0, _⟩ => rfl

/-- The product plus the bias at batch row `i` and stacked column `c`: the 2048-term sum splits into the sum over
    the columns of `x` and the sum over the columns of `h`, each against row `c` of the stacked weights. -/
theorem v7_at (x0 x1 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (i : Fin 16384) (c : Fin 4096) :
    Read.val_main_v7 (F := Ideal) x0 x1 x3 x4 x5 x6 x7 x8 x9 x10 (ix2 i c) =
      ((∑ k : Fin 1024, x0 (ix2 i k) * Read.val_main_v1 (F := Ideal) x3 x5 x7 x9 (ix2 c (lo k))) +
        (∑ k : Fin 1024, x1 (ix2 i k) * Read.val_main_v1 (F := Ideal) x3 x5 x7 x9 (ix2 c (hi k)))) +
      Read.val_main_v2 (F := Ideal) x4 x6 x8 x10 (ix1 c) := by
  rw [Read.val_main_v7_apply, Ideal.addf_def, Read.val_main_v4_apply, Read.val_main_v6_apply, Read.val_main_v5_apply,
    bidx_ix2, sum_halves]
  refine congrArg₂ (· + ·) (congrArg₂ (· + ·) (Finset.sum_congr rfl fun k _ => ?_) (Finset.sum_congr rfl fun k _ => ?_)) rfl
  · rw [lidx_ix2, v0_lo, Read.val_main_v3_apply, ridx_ix2]
  · rw [lidx_ix2, v0_hi, Read.val_main_v3_apply, ridx_ix2]

/-- A gate's pre-activation: where rows `c` of the stacked weights and entry `c` of the joined biases are the gate's
    row `j` and entry `j`, the product plus the bias at `(i, c)` is the gate's pre-activation at `(i, j)`. -/
theorem pre_of (x0 x1 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (W : FVec Ideal Wts .f32) (b : FVec Ideal Bias .f32)
    (i : Fin 16384) (c : Fin 4096) (j : Fin 1024)
    (hW : ∀ k : Fin 2048, Read.val_main_v1 (F := Ideal) x3 x5 x7 x9 (ix2 c k) = W (ix2 j k))
    (hb : Read.val_main_v2 (F := Ideal) x4 x6 x8 x10 (ix1 c) = b (ix1 j)) :
    Read.val_main_v7 (F := Ideal) x0 x1 x3 x4 x5 x6 x7 x8 x9 x10 (ix2 i c) = pre x0 x1 W b i j := by
  refine (v7_at x0 x1 x3 x4 x5 x6 x7 x8 x9 x10 i c).trans ?_
  unfold pre
  refine congrArg₂ (· + ·) (congrArg₂ (· + ·) (Finset.sum_congr rfl fun k _ => ?_) (Finset.sum_congr rfl fun k _ => ?_)) hb
  · rw [hW]
  · rw [hW]

/-- The forget gate's pre-activation is the product plus the bias at the gate's columns. -/
theorem pre_f (x0 x1 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (i : Fin 16384) (j : Fin 1024) :
    Read.val_main_v7 (F := Ideal) x0 x1 x3 x4 x5 x6 x7 x8 x9 x10 (ix2 i (col 0 j)) = pre x0 x1 x3 x4 i j :=
  pre_of x0 x1 x3 x4 x5 x6 x7 x8 x9 x10 x3 x4 i (col 0 j) j (fun k => v1_at0 x3 x5 x7 x9 j k) (v2_at0 x4 x6 x8 x10 j)

/-- Column `j` of the forget gate's slice is column `col 0 j` of the product. -/
theorem sl_f (i : Fin 16384) (j : Fin 1024) : Read.idx_main_v8 (ix2 i j) = ix2 i (col 0 j) :=
  funext fun a => match a with
    | ⟨0, _⟩ => rfl
    | ⟨1, _⟩ => Fin.ext (by show j.val = 0 * 1024 + j.val; omega)

/-- The update gate's pre-activation is the product plus the bias at the gate's columns. -/
theorem pre_u (x0 x1 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (i : Fin 16384) (j : Fin 1024) :
    Read.val_main_v7 (F := Ideal) x0 x1 x3 x4 x5 x6 x7 x8 x9 x10 (ix2 i (col 1 j)) = pre x0 x1 x5 x6 i j :=
  pre_of x0 x1 x3 x4 x5 x6 x7 x8 x9 x10 x5 x6 i (col 1 j) j (fun k => v1_at1 x3 x5 x7 x9 j k) (v2_at1 x4 x6 x8 x10 j)

/-- Column `j` of the update gate's slice is column `col 1 j` of the product. -/
theorem sl_u (i : Fin 16384) (j : Fin 1024) : Read.idx_main_v9 (ix2 i j) = ix2 i (col 1 j) :=
  funext fun a => match a with
    | ⟨0, _⟩ => rfl
    | ⟨1, _⟩ => Fin.ext (by show 1024 + j.val = 1 * 1024 + j.val; omega)

/-- The candidate gate's pre-activation is the product plus the bias at the gate's columns. -/
theorem pre_c (x0 x1 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (i : Fin 16384) (j : Fin 1024) :
    Read.val_main_v7 (F := Ideal) x0 x1 x3 x4 x5 x6 x7 x8 x9 x10 (ix2 i (col 2 j)) = pre x0 x1 x7 x8 i j :=
  pre_of x0 x1 x3 x4 x5 x6 x7 x8 x9 x10 x7 x8 i (col 2 j) j (fun k => v1_at2 x3 x5 x7 x9 j k) (v2_at2 x4 x6 x8 x10 j)

/-- Column `j` of the candidate gate's slice is column `col 2 j` of the product. -/
theorem sl_c (i : Fin 16384) (j : Fin 1024) : Read.idx_main_v10 (ix2 i j) = ix2 i (col 2 j) :=
  funext fun a => match a with
    | ⟨0, _⟩ => rfl
    | ⟨1, _⟩ => Fin.ext (by show 2048 + j.val = 2 * 1024 + j.val; omega)

/-- The output gate's pre-activation is the product plus the bias at the gate's columns. -/
theorem pre_o (x0 x1 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (i : Fin 16384) (j : Fin 1024) :
    Read.val_main_v7 (F := Ideal) x0 x1 x3 x4 x5 x6 x7 x8 x9 x10 (ix2 i (col 3 j)) = pre x0 x1 x9 x10 i j :=
  pre_of x0 x1 x3 x4 x5 x6 x7 x8 x9 x10 x9 x10 i (col 3 j) j (fun k => v1_at3 x3 x5 x7 x9 j k) (v2_at3 x4 x6 x8 x10 j)

/-- Column `j` of the output gate's slice is column `col 3 j` of the product. -/
theorem sl_o (i : Fin 16384) (j : Fin 1024) : Read.idx_main_v11 (ix2 i j) = ix2 i (col 3 j) :=
  funext fun a => match a with
    | ⟨0, _⟩ => rfl
    | ⟨1, _⟩ => Fin.ext (by show 3072 + j.val = 3 * 1024 + j.val; omega)

/-! ## The float `1.0`, broadcast over the batch arrays, reads the real `1` at every index -/

theorem one_v14 (i : S16384x1024.Idx) : Read.val_main_v14 (F := Ideal) i = 1 := by
  rw [Read.val_main_v14_apply, Read.val_main_cst_apply, Ideal.ofBits_def, word_one]

theorem one_v16 (i : S16384x1024.Idx) : Read.val_main_v16 (F := Ideal) i = 1 := by
  rw [Read.val_main_v16_apply, Read.val_main_cst_0_apply, Ideal.ofBits_def, word_one]

theorem one_v20 (i : S16384x1024.Idx) : Read.val_main_v20 (F := Ideal) i = 1 := by
  rw [Read.val_main_v20_apply, Read.val_main_cst_1_apply, Ideal.ofBits_def, word_one]

theorem one_v22 (i : S16384x1024.Idx) : Read.val_main_v22 (F := Ideal) i = 1 := by
  rw [Read.val_main_v22_apply, Read.val_main_cst_2_apply, Ideal.ofBits_def, word_one]

theorem one_v27 (i : S16384x1024.Idx) : Read.val_main_v27 (F := Ideal) i = 1 := by
  rw [Read.val_main_v27_apply, Read.val_main_cst_3_apply, Ideal.ofBits_def, word_one]

theorem one_v29 (i : S16384x1024.Idx) : Read.val_main_v29 (F := Ideal) i = 1 := by
  rw [Read.val_main_v29_apply, Read.val_main_cst_4_apply, Ideal.ofBits_def, word_one]

/-! ## The gates -/

/-- The printed expansion `1 / (1 + exp (-g))` is the logistic function. -/
theorem logistic_expand (g : EReal) :
    FloatOps.hostDivf (F := Ideal) (φ := .f32) 1 (FloatOps.addf 1 (FloatOps.hostUnary .exp (FloatOps.hostNegf g))) = Ideal.logistic g := rfl

/-- The forget gate. -/
theorem v17_at (x0 x1 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (i : Fin 16384) (j : Fin 1024) :
    Read.val_main_v17 (F := Ideal) x0 x1 x3 x4 x5 x6 x7 x8 x9 x10 (ix2 i j) = Ideal.logistic (pre x0 x1 x3 x4 i j) := by
  rw [Read.val_main_v17_apply, one_v16, Read.val_main_v15_apply, one_v14, Read.val_main_v13_apply, Read.val_main_v12_apply,
    Read.val_main_v8_apply, sl_f, pre_f, logistic_expand]

/-- The update gate. -/
theorem v23_at (x0 x1 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (i : Fin 16384) (j : Fin 1024) :
    Read.val_main_v23 (F := Ideal) x0 x1 x3 x4 x5 x6 x7 x8 x9 x10 (ix2 i j) = Ideal.logistic (pre x0 x1 x5 x6 i j) := by
  rw [Read.val_main_v23_apply, one_v22, Read.val_main_v21_apply, one_v20, Read.val_main_v19_apply, Read.val_main_v18_apply,
    Read.val_main_v9_apply, sl_u, pre_u, logistic_expand]

/-- The candidate. -/
theorem v24_at (x0 x1 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (i : Fin 16384) (j : Fin 1024) :
    Read.val_main_v24 (F := Ideal) x0 x1 x3 x4 x5 x6 x7 x8 x9 x10 (ix2 i j) = Ideal.tanh (pre x0 x1 x7 x8 i j) := by
  rw [Read.val_main_v24_apply, Read.val_main_v10_apply, sl_c, pre_c, Ideal.hostUnary_tanh_def]

/-- The output gate. -/
theorem v30_at (x0 x1 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (i : Fin 16384) (j : Fin 1024) :
    Read.val_main_v30 (F := Ideal) x0 x1 x3 x4 x5 x6 x7 x8 x9 x10 (ix2 i j) = Ideal.logistic (pre x0 x1 x9 x10 i j) := by
  rw [Read.val_main_v30_apply, one_v29, Read.val_main_v28_apply, one_v27, Read.val_main_v26_apply, Read.val_main_v25_apply,
    Read.val_main_v11_apply, sl_o, pre_o, logistic_expand]

/-! ## The two results -/

/-- The new cell state at `(i, j)`. -/
theorem v33_at (x0 x1 x2 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) (i : Fin 16384) (j : Fin 1024) :
    Read.val_main_v33 (F := Ideal) x0 x1 x2 x3 x4 x5 x6 x7 x8 x9 x10 (ix2 i j) = cell x0 x1 x2 x3 x4 x5 x6 x7 x8 i j := by
  rw [Read.val_main_v33_apply, Read.val_main_v31_apply, Read.val_main_v32_apply, v17_at, v23_at, v24_at]
  rfl

/-- The program's cell-state result, as an array, is the new cell state of the argument arrays. -/
theorem v33_spec (x0 x1 x2 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) :
    Read.val_main_v33 (F := Ideal) x0 x1 x2 x3 x4 x5 x6 x7 x8 x9 x10 = Gc x0 x1 x2 x3 x4 x5 x6 x7 x8 := by
  funext idx
  obtain ⟨i, j, rfl⟩ : ∃ (i : Fin 16384) (j : Fin 1024), idx = ix2 i j := ⟨idx 0, idx 1, eq_ix2 idx⟩
  rw [Gc_ix2, v33_at]

/-- The program's hidden-state result, as an array, is the new hidden state of the argument arrays. -/
theorem v35_spec (x0 x1 x2 : FVec Ideal Rows .f32) (x3 : FVec Ideal Wts .f32) (x4 : FVec Ideal Bias .f32)
    (x5 : FVec Ideal Wts .f32) (x6 : FVec Ideal Bias .f32) (x7 : FVec Ideal Wts .f32) (x8 : FVec Ideal Bias .f32)
    (x9 : FVec Ideal Wts .f32) (x10 : FVec Ideal Bias .f32) :
    Read.val_main_v35 (F := Ideal) x0 x1 x2 x3 x4 x5 x6 x7 x8 x9 x10 = Gh x0 x1 x2 x3 x4 x5 x6 x7 x8 x9 x10 := by
  funext idx
  obtain ⟨i, j, rfl⟩ : ∃ (i : Fin 16384) (j : Fin 1024), idx = ix2 i j := ⟨idx 0, idx 1, eq_ix2 idx⟩
  rw [Gh_ix2, Read.val_main_v35_apply, Read.val_main_v34_apply, v33_at, v30_at, Ideal.hostUnary_tanh_def]
  rfl

/-! ## The run -/

/-- Every weakly fair execution of the reference program terminates with its two results the new hidden state and the
    new cell state of the argument arrays, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v33) = Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨h35, h33, hargs⟩ := h c
      exact ⟨h35.trans ((Read.val_main_v35_eq m c).trans (v35_spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))),
        h33.trans ((Read.val_main_v33_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).trans
          (v33_spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))),
        hargs⟩)
    (Value.run (F := Ideal) m ρ)

end Cert.ReferenceIdeal.RefValue

end
-- ==== Proof.lean ====
/-
  An LSTM cell step, as a Pallas kernel over 64 blocks of 256 batch rows, against its plain reference.

  Both programs compute, for batch row `i` and gate column `j`, the four gates' pre-activations — the row `(x i, h i)`
  against row `j` of each gate's weights, plus the gate's bias —, then `c' = σ(f) · c + σ(u) · tanh(g)` and
  `h' = tanh(c') · σ(o)`.  The kernel splits every weight matrix into its input and hidden halves, transposes them,
  lays the four gates side by side and multiplies the `x` and `h` blocks separately; the reference joins `x` and `h`
  into rows of length 2048 and multiplies once.  On the extended reals the two agree element by element: a sum over
  2048 columns is the sum over the first 1024 plus the sum over the last 1024 (commutativity and associativity only,
  so nothing need be finite), a change of float format is the identity, and the kernel's logistic is the
  reference's `1 / (1 + exp (-·))` by definition.  The ideal pass rewrote nothing, so the idealized kernel is the
  kernel's own text.  Each kernel program's frame is the library's frame run over the per-point data of its body;
  the reference's is its run with the results dropped.
-/
import proofs.«177931_j33148557590883_2_alg».proof.Defs
import proofs.«177931_j33148557590883_2_alg».proof.Proof.Gen.Kernel
import proofs.«177931_j33148557590883_2_alg».proof.Proof.Gen.KernelIdeal
import proofs.«177931_j33148557590883_2_alg».proof.Proof.Gen.ReferenceIdeal
import proofs.«177931_j33148557590883_2_alg».proof.Proof.Gen.Pre_finite_inputs
import proofs.«177931_j33148557590883_2_alg».proof.Proof.KFrameBits
import proofs.«177931_j33148557590883_2_alg».proof.Proof.KFrame
import proofs.«177931_j33148557590883_2_alg».proof.Proof.KValue
import proofs.«177931_j33148557590883_2_alg».proof.Proof.RefSpec
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Run from memories that agree on the arguments, both programs end with the new hidden state and the new cell
    state of those arguments. -/
theorem algebraic : Cert.algebraic_KernelIdeal_ReferenceIdeal := by
  intro m ρ m' ρ' _ hagree
  refine ⟨fun c => Cert.KernelIdeal.KValue.GhOf m c, fun c => Cert.KernelIdeal.KValue.GcOf m c,
    Cert.KernelIdeal.KValue.run m ρ, ?_⟩
  refine (θ_run Cert.ReferenceIdeal.defs _ _).mono (fun _ h c => ?_) (Cert.ReferenceIdeal.RefValue.run_spec m' ρ')
  obtain ⟨a0, a1, a2, a3, a4, a5, a6, a7, a8, a9, a10⟩ := hagree c
  refine ⟨(h c).1.trans ?_, (h c).2.1.trans ?_, (h c).2.2⟩
  · rw [a0, a1, a2, a3, a4, a5, a6, a7, a8, a9, a10]
  · rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
